-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608 : Shape := ⟨1, ![8388608]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) (main_arg1 : IVec S8388608 32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608 : Shape := ⟨1, ![8388608]⟩
abbrev S2x4194304x3 : Shape := ⟨3, ![2, 4194304, 3]⟩
abbrev S2x4194304x1 : Shape := ⟨3, ![2, 4194304, 1]⟩
abbrev S2x1x1 : Shape := ⟨3, ![2, 1, 1]⟩
abbrev S1x8192x3 : Shape := ⟨3, ![1, 8192, 3]⟩
abbrev S1x8192x1 : Shape := ⟨3, ![1, 8192, 1]⟩
abbrev S1x1x1 : Shape := ⟨3, ![1, 1, 1]⟩
abbrev S1x1 : Shape := ⟨2, ![1, 1]⟩
abbrev S8192x3 : Shape := ⟨2, ![8192, 3]⟩
abbrev S8192x1 : Shape := ⟨2, ![8192, 1]⟩
abbrev S8192 : Shape := ⟨1, ![8192]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S2x4194304x3, .f32⟩
  | .hbm, ⟨3, _⟩ => ⟨S2x4194304x1, .i32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x8192x3, .f32⟩
  | .local _ .vmem, ⟨1, _⟩ => ⟨S1x8192x3, .f32⟩
  | .local _ .vmem, ⟨2, _⟩ => ⟨S1x8192x1, .i32⟩
  | .local _ .vmem, ⟨3, _⟩ => ⟨S1x8192x1, .i32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 512], ![false, false]⟩

def k0_cond2 (i : grid0.Coords) : BitVec 1 :=
  let arg1 : BitVec 32 := BitVec.ofNat 32 (i 1).val
  let c511_i32 : BitVec 32 := 511#32
  let v51 : BitVec 1 := Scalar.cmpi .eq arg1 c511_i32
  let v52 : BitVec 32 := Scalar.extui v51
  let c0_i32_18 : BitVec 32 := 0#32
  let v53 : BitVec 1 := Scalar.cmpi .ne v52 c0_i32_18
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8388608x3_S2x4194304x3 : S8388608x3.ShapeCasts S2x4194304x3
  shapeCasts_S8388608_S2x4194304x1 : S8388608.ShapeCasts S2x4194304x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  iota_S8192x3_d1_w32 : S8192x3.Iotas .tc 32 [1]
  broadcasts_S8192x1_S8192x3 : S8192x1.Broadcasts S8192x3
  natLt_1_32 : 1 < 32
  reduces_S8192x3_S8192 : S8192x3.Reduces [1] S8192
  shapeCasts_S8192_S8192x1 : S8192.ShapeCasts S8192x1
  reduces_S8192x1_S1 : S8192x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S2x4194304x3.size a
  hwx0_0 : ∀ i : grid0.Coords, EltTy.bits .f32 = 32 ∨ (Rect.block (s := S2x4194304x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x1.size a ≤ S2x4194304x1.size a
  hwx0_1 : ∀ i : grid0.Coords, EltTy.bits .i32 = 32 ∨ (Rect.block (s := S2x4194304x1) S1x8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x3 : Shape := ⟨2, ![8388608, 3]⟩
abbrev S8388608 : Shape := ⟨1, ![8388608]⟩
abbrev S_ : Shape := ⟨0, ![]⟩
abbrev S8388608x1 : Shape := ⟨2, ![8388608, 1]⟩
abbrev S1x3 : Shape := ⟨2, ![1, 3]⟩

abbrev nBuf : Space → Nat
  | .hbm => 53
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S_, .i32⟩
  | .hbm, ⟨3, _⟩ => ⟨S8388608, .i32⟩
  | .hbm, ⟨4, _⟩ => ⟨S8388608, .i1⟩
  | .hbm, ⟨5, _⟩ => ⟨S_, .i32⟩
  | .hbm, ⟨6, _⟩ => ⟨S8388608, .i32⟩
  | .hbm, ⟨7, _⟩ => ⟨S8388608, .i1⟩
  | .hbm, ⟨8, _⟩ => ⟨S_, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i32⟩
  | .hbm, ⟨16, _⟩ => ⟨S8388608x1, .i32⟩
  | .hbm, ⟨17, _⟩ => ⟨S1x3, .i32⟩
  | .hbm, ⟨18, _⟩ => ⟨S8388608x1, .i32⟩
  | .hbm, ⟨19, _⟩ => ⟨S8388608x3, .i32⟩
  | .hbm, ⟨20, _⟩ => ⟨S8388608x3, .i32⟩
  | .hbm, ⟨21, _⟩ => ⟨S8388608x3, .i1⟩
  | .hbm, ⟨22, _⟩ => ⟨S8388608x3, .f32⟩
  | .hbm, ⟨23, _⟩ => ⟨S8388608x3, .f32⟩
  | .hbm, ⟨24, _⟩ => ⟨S_, .f32⟩
  | .hbm, ⟨25, _⟩ => ⟨S8388608x3, .f32⟩
  | .hbm, ⟨26, _⟩ => ⟨S8388608x3, .f32⟩
  | .hbm, ⟨27, _⟩ => ⟨S_, .f32⟩
  | .hbm, ⟨28, _⟩ => ⟨S8388608x3, .f32⟩
  | .hbm, ⟨29, _⟩ => ⟨S8388608x3, .f32⟩
  | .hbm, ⟨30, _⟩ => ⟨S8388608x3, .f32⟩
  | .hbm, ⟨31, _⟩ => ⟨S8388608x3, .f32⟩
  | .hbm, ⟨32, _⟩ => ⟨S_, .f32⟩
  | .hbm, ⟨33, _⟩ => ⟨S8388608x3, .f32⟩
  | .hbm, ⟨34, _⟩ => ⟨S8388608x3, .f32⟩
  | .hbm, ⟨35, _⟩ => ⟨S_, .f32⟩
  | .hbm, ⟨36, _⟩ => ⟨S8388608x3, .f32⟩
  | .hbm, ⟨37, _⟩ => ⟨S8388608x3, .f32⟩
  | .hbm, ⟨38, _⟩ => ⟨S_, .f32⟩
  | .hbm, ⟨39, _⟩ => ⟨S8388608x3, .f32⟩
  | .hbm, ⟨40, _⟩ => ⟨S8388608x3, .f32⟩
  | .hbm, ⟨41, _⟩ => ⟨S8388608x3, .f32⟩
  | .hbm, ⟨42, _⟩ => ⟨S8388608x3, .f32⟩
  | .hbm, ⟨43, _⟩ => ⟨S8388608x3, .f32⟩
  | .hbm, ⟨44, _⟩ => ⟨S8388608x3, .f32⟩
  | .hbm, ⟨45, _⟩ => ⟨S8388608x3, .f32⟩
  | .hbm, ⟨46, _⟩ => ⟨S8388608x3, .f32⟩
  | .hbm, ⟨47, _⟩ => ⟨S8388608x3, .f32⟩
  | .hbm, ⟨48, _⟩ => ⟨S8388608x3, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_c_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_c_3 : Ref sig .tc := ⟨.hbm, 13, rfl⟩
abbrev main_call1_v0 : Ref sig .tc := ⟨.hbm, 14, rfl⟩
abbrev main_v5 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x3_0_1 : S8388608x1.BroadcastsInDim S8388608x3 (![0, 1] : Fin 2 → Fin S8388608x3.rank)
  bcast_S1x3_S8388608x3_0_1 : S1x3.BroadcastsInDim S8388608x3 (![0, 1] : Fin 2 → Fin S8388608x3.rank)
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts₀]

class Facts : Prop extends Facts₀ where

variable [Facts]
-- ==== Proof.Pieces.lean ====
/-
  What one step of the kernel leaves behind, as values.

  The kernel walks a [2, 512] grid; at every step it adds the sum of one [8192, 3] block of loss terms to a
  one-entry accumulator that lives across steps, clearing it first when the second coordinate is 0 and copying it to
  the [1, 1, 1] output block when that coordinate is 511. Here the accumulator after a step, and the output block at a
  copying step, are read back from the stores the step performs: the accumulator is the step's block sum added to what
  it held before (to the stored zero at a clearing step), and the output block is that accumulator re-laid as [1, 1, 1].
  Nothing here depends on how floats are interpreted.
-/
import proofs.«158933_j31507880083477_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after one step, from the step's two input blocks and the accumulator's contents before the
    addition: the block's loss terms summed over classes and then over rows, added to the old contents. -/
def stepAcc (x0 : Vec F S1x8192x3 .f32) (x1 : Vec F S1x8192x1 .i32) (acc : Vec F S1x1 .f32) : Vec F S1x1 .f32 :=
  k0_pay1 (k0_pay6 x0 x1) (k0_pay7 x0 x1) (k0_pay8 x0) acc

/-- A clearing step (second grid coordinate 0, and not 511): the accumulator is zeroed, read back, and the block's
    sum added to it. -/
theorem acc_clearing (c : Dev nD) (i : grid0.Coords) (arg2 : Memref sig .tc .vmem S1x8192x3 .f32) (harg2 : arg2.IsWhole) (arg3 : Memref sig .tc .vmem S1x8192x1 .i32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S1x8192x3 .f32) (x1 : Vec F S1x8192x1 .i32) :
    sout0_A_0 c i arg2 harg2 arg3 harg3 arg4 harg4 arg5 harg5 hc0 hc1 x0 x1 = stepAcc x0 x1 (k0_pay3 (F := F)) := by
  unfold sout0_A_0 stepAcc
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg5.read_unread, View.ld_unit_zero (S := S1x1) hz2, View.ld_unit_zero (S := S1x8192x3) hz3, View.ld_unit_zero (S := S1x8192x1) hz3]

/-- A middle step (second grid coordinate neither 0 nor 511): the block's sum is added to what the step before left. -/
theorem acc_middle (c : Dev nD) (i : grid0.Coords) (arg2 : Memref sig .tc .vmem S1x8192x3 .f32) (harg2 : arg2.IsWhole) (arg3 : Memref sig .tc .vmem S1x8192x1 .i32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S1x8192x3 .f32) (x1 : Vec F S1x8192x1 .i32) (xs0 : Vec F S1x1 .f32) :
    sout0_B_0 c i arg2 harg2 arg3 harg3 arg4 harg4 arg5 harg5 hc0 hc1 x0 x1 xs0 = stepAcc x0 x1 xs0 := by
  unfold sout0_B_0 stepAcc
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x1) hz2, View.ld_unit_zero (S := S1x8192x3) hz3, View.ld_unit_zero (S := S1x8192x1) hz3]

/-- A copying step (second grid coordinate 511): the accumulator is updated as at a middle step, -/
theorem acc_copying (c : Dev nD) (i : grid0.Coords) (arg2 : Memref sig .tc .vmem S1x8192x3 .f32) (harg2 : arg2.IsWhole) (arg3 : Memref sig .tc .vmem S1x8192x1 .i32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1x8192x3 .f32) (x1 : Vec F S1x8192x1 .i32) (xs0 : Vec F S1x1 .f32) :
    sout0_C_0 c i arg2 harg2 arg3 harg3 arg4 harg4 arg5 harg5 hc0 hc1 x0 x1 xs0 = stepAcc x0 x1 xs0 := by
  unfold sout0_C_0 stepAcc
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x1) hz2, View.ld_unit_zero (S := S1x8192x3) hz3, View.ld_unit_zero (S := S1x8192x1) hz3]

/-- and the output block receives the updated accumulator, re-laid from [1, 1] to [1, 1, 1]. -/
theorem out_copying (c : Dev nD) (i : grid0.Coords) (arg2 : Memref sig .tc .vmem S1x8192x3 .f32) (harg2 : arg2.IsWhole) (arg3 : Memref sig .tc .vmem S1x8192x1 .i32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1x8192x3 .f32) (x1 : Vec F S1x8192x1 .i32) (xs0 : Vec F S1x1 .f32) :
    out0_C_2 c i arg2 harg2 arg3 harg3 arg4 harg4 arg5 harg5 hc0 hc1 x0 x1 xs0 = k0_pay2 (stepAcc x0 x1 xs0) := by
  unfold out0_C_2 stepAcc
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S1x1) hz2, View.ld_unit_zero (S := S1x8192x3) hz3, View.ld_unit_zero (S := S1x8192x1) hz3]

end Cert.KernelIdeal.Pieces

end
-- ==== Proof.LossTerm.lean ====
/-
  The focal binary-cross-entropy term of one logit against one class of a three-class one-hot target, on the
  extended reals.

  A target word w selects a column: 1 selects 0, 3 selects 1, anything else 2. The one-hot entry t of class k is 1 when
  k is that column and 0 otherwise. For a logit x the term is

      (1 - pt)^2 * (max(x, 0) - x*t + log1p(exp(-|x|))),     pt = x*t + (1 - x)*(1 - t).

  One program squares 1 - pt by multiplying it with itself and negates |x| by subtracting it from zero; the other raises
  1 - pt to the power 2.0 and negates |x| directly. Subtracting from zero is negation on every extended real. The power
  and the product agree whenever 1 - pt is a real number (the real power with exponent 2 is the square, for negative
  bases too), and they differ at -inf, where the power is -inf and the product +inf; so the two spellings are joined
  for a REAL logit and a real one-hot entry.
-/
import Idealize.ShloMosaic.PureOps.Ideal.Laws
import Idealize.ShloMosaic.Lib.IdealHost

noncomputable section

namespace Cert.Focal

open Idealize.ShloMosaic

/-- The column a target word selects. -/
def col (w : BitVec 32) : BitVec 32 :=
  Scalar.select (IntOp.cmpi .eq w 1#32) 0#32 (Scalar.select (IntOp.cmpi .eq w 3#32) 1#32 2#32)

/-- The one-hot entry of class `k` for target word `w`, as a number: the comparison bit read unsigned. -/
def hot (w : BitVec 32) (k : ℕ) : EReal :=
  (((IntOp.cmpi .eq (col w) (BitVec.ofNat 32 k)).toNat : ℝ) : EReal)

/-- Equality of words does not depend on the order of its operands. -/
theorem cmpi_eq_comm {w : ℕ} (a b : BitVec w) : IntOp.cmpi .eq a b = IntOp.cmpi .eq b a := by
  show BitVec.ofBool (a == b) = BitVec.ofBool (b == a)
  rw [BEq.comm]

/-- A bit widened to 32 bits and read signed is the bit read unsigned. -/
theorem widen_bit (b : BitVec 1) : ((((b.setWidth 32).toInt : ℤ) : ℝ) : EReal) = ((b.toNat : ℝ) : EReal) := by
  rcases BitVec.eq_zero_or_eq_one b with h | h <;> subst h <;> simp

/-- The same entry as the other program computes it: the class compared with the column, the bit widened and read
    signed. -/
theorem hot_widened (w : BitVec 32) (k : ℕ) :
    (((((IntOp.cmpi .eq (BitVec.ofNat 32 k) (col w)).setWidth 32).toInt : ℤ) : ℝ) : EReal) = hot w k := by
  rw [widen_bit, cmpi_eq_comm]; rfl

/-- The f32 words for 0, 1 and 2. -/
def W0 : EReal := Ideal.ofBits .f32 0x00000000#32
def W1 : EReal := Ideal.ofBits .f32 0x3F800000#32
def W2 : EReal := Ideal.ofBits .f32 0x40000000#32

theorem W0_eq : W0 = 0 := Ideal.ofBits_zero_f32
theorem W1_eq : W1 = ((1 : ℝ) : EReal) := by
  unfold W1; rw [Ideal.ofBits_one_f32]; norm_cast
theorem W2_eq : W2 = ((2 : ℝ) : EReal) := by
  unfold W2
  simp [Ideal.ofBits, Ideal.ieee, -EReal.coe_mul]; norm_num

/-- The term with the square as a product and the negation as a subtraction from zero. -/
def term (x t : EReal) : EReal :=
  ((W1 - (x * t + (W1 - x) * (W1 - t))) * (W1 - (x * t + (W1 - x) * (W1 - t))))
    * ((max x W0 - x * t) + Ideal.log1p (Ideal.exp (W0 - max x (-x))))

/-- The term with the square as the power 2.0 and the negation direct. -/
def termPow (x t : EReal) : EReal :=
  Ideal.pow (W1 - (x * t + (W1 - x) * (W1 - t))) W2
    * ((max x W0 - x * t) + Ideal.log1p (Ideal.exp (-(max x (-x)))))

/-- For a real logit and a real one-hot entry the two spellings are one number. -/
theorem termPow_eq (x t : ℝ) : termPow (x : EReal) (t : EReal) = term (x : EReal) (t : EReal) := by
  unfold termPow term
  have hneg : W0 - max (x : EReal) (-(x : EReal)) = -(max (x : EReal) (-(x : EReal))) := by
    rw [W0_eq, sub_eq_add_neg, zero_add]
  have hr : W1 - ((x : EReal) * (t : EReal) + (W1 - (x : EReal)) * (W1 - (t : EReal)))
      = ((1 - (x * t + (1 - x) * (1 - t)) : ℝ) : EReal) := by
    rw [W1_eq]; push_cast; rfl
  rw [hneg, hr, W2_eq, Ideal.pow_coe_coe, ← EReal.coe_mul]
  congr 2
  rw [Real.rpow_eq_pow, Real.rpow_two, pow_two]

open Idealize.ShloMosaic.ValueIdx in
/-- The three terms of row `a` of the [8388608, 3] logits against the row's target word, summed over the classes
    (zero for a row number past the array). -/
def rowTerm (p : (⟨2, ![8388608, 3]⟩ : Shape).Idx → EReal) (g : (⟨1, ![8388608]⟩ : Shape).Idx → BitVec 32) (a : ℕ) : EReal :=
  if h : a < 8388608 then ∑ k : Fin 3, term (p (ix2 ⟨a, h⟩ k)) (hot (g (ix1 ⟨a, h⟩)) k.val) else 0

/-- The mean loss: the sum of all rows' terms, started from the zero word, divided by the word for 8388608 · 3. -/
def meanLoss (p : (⟨2, ![8388608, 3]⟩ : Shape).Idx → EReal) (g : (⟨1, ![8388608]⟩ : Shape).Idx → BitVec 32) : EReal :=
  Ideal.div (W0 + ∑ a ∈ Finset.range 8388608, rowTerm p g a) (Ideal.ofBits .f32 0x4BC00000#32)

end Cert.Focal

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.KernelBlock.lean ====
/-
  One step of the kernel at the ideal values: what it adds to the accumulator.

  The step's block of logits is [1, 8192, 3] and its block of target words [1, 8192, 1]. Dropping the unit axis, each
  row's word picks a column, the one-hot matrix compares the class number with it, and every later operation up to the
  loss matrix is pointwise; so the loss matrix's entry (r, k) is the focal term of the logit x[0, r, k] and the one-hot
  entry of class k for the word of row r. Summing over the classes and then over the rows, and adding to the old
  accumulator, the step leaves  acc + Σ_r Σ_k term(x[0,r,k], hot(w[0,r,0], k)).
-/
import proofs.«158933_j31507880083477_1_alg».proof.Proof.Pieces
import proofs.«158933_j31507880083477_1_alg».proof.Proof.LossTerm
import proofs.«158933_j31507880083477_1_alg».proof.Proof.LibRowSum
import proofs.«158933_j31507880083477_1_alg».proof.Proof.LibKeepdimsLayout
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Cert.KernelIdeal.Pieces Cert.Focal
open Idealize.ShloMosaic Idealize.ShloMosaic.ValueIdx

/-- Row r, class k of the block's logits. -/
theorem logit_apply (x0 : Vec Ideal S1x8192x3 .f32) (r : Fin 8192) (k : Fin 3) :
    k0_pay4 x0 (ix2 r k) = x0 (ix3 (0 : Fin 1) r k) := by
  unfold k0_pay4
  exact shapeCast_1ab_ab_apply x0 _ r k

/-- Row r, class k of the one-hot matrix the step builds from the block's target words: the class number compared with
    the column the row's word selects, the bit widened and converted. -/
theorem onehot_apply (x1 : Vec Ideal S1x8192x1 .i32) (r : Fin 8192) (k : Fin 3) :
    k0_pay5 (F := Ideal) x1 (ix2 r k) = hot (x1 (ix3 (0 : Fin 1) r (0 : Fin 1))) k.val := by
  unfold k0_pay5
  dsimp only
  show (((((IntOp.cmpi .eq (iota Kind.tc S8192x3 32 [1] iota_S8192x3_d1_w32 (ix2 r k))
      (broadcastTo S8192x3 _ broadcasts_S8192x1_S8192x3 (ix2 r k))).setWidth 32).toInt : ℤ) : ℝ) : EReal) = _
  rw [iota_single_apply, Cert.LayoutKeepdims.broadcastTo_a1_ab_apply]
  show (((((IntOp.cmpi .eq (BitVec.ofNat 32 k.val) (col (shapeCast S8192x1 x1 shapeCasts_S1x8192x1_S8192x1 (ix2 r (0 : Fin 1))))).setWidth 32).toInt : ℤ) : ℝ) : EReal) = _
  rw [shapeCast_1ab_ab_apply, hot_widened]

/-- The block's loss term of row r and class k: every operation of the chain is pointwise, so the entry is the
    term of the row's logit and one-hot entry. -/
theorem loss_apply (x0 : Vec Ideal S1x8192x3 .f32) (x1 : Vec Ideal S1x8192x1 .i32) (r : Fin 8192) (k : Fin 3) :
    mulf (k0_pay6 x0 x1) (addf (k0_pay7 x0 x1) (log1p (k0_pay8 x0))) (ix2 r k)
      = term (x0 (ix3 (0 : Fin 1) r k)) (hot (x1 (ix3 (0 : Fin 1) r (0 : Fin 1))) k.val) := by
  rw [← logit_apply x0 r k, ← onehot_apply x1 r k]
  rfl

/-- The sum of a block's loss terms over its 8192 rows and 3 classes. -/
def blockSum (x0 : Vec Ideal S1x8192x3 .f32) (x1 : Vec Ideal S1x8192x1 .i32) : EReal :=
  ∑ r : Fin 8192, ∑ k : Fin 3, term (x0 (ix3 (0 : Fin 1) r k)) (hot (x1 (ix3 (0 : Fin 1) r (0 : Fin 1))) k.val)

/-- One step's update of the accumulator, read at its one entry: the old entry plus the block's sum. The two
    reductions (over classes, then over rows) are finite sums on the extended reals, and the re-layings between them
    keep positions. -/
theorem stepAcc_apply (x0 : Vec Ideal S1x8192x3 .f32) (x1 : Vec Ideal S1x8192x1 .i32) (acc : Vec Ideal S1x1 .f32) (j : S1x1.Idx) :
    stepAcc (F := Ideal) x0 x1 acc j = acc j + blockSum x0 x1 := by
  unfold stepAcc k0_pay1
  dsimp only
  rw [shapeCast_self]
  show acc j + shapeCast S1x1 _ shapeCasts_S1_S1x1 j = _
  congr 1
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  · refine (Ideal.multiReduction_add_total _ _ reduces_S8192x1_S1 (fun b => by fin_cases b; rfl) _ _ _).trans ?_
    rw [sum_idx2]
    unfold blockSum
    refine Finset.sum_congr rfl fun r _ => ?_
    rw [Fin.sum_univ_one]
    rw [Cert.LayoutKeepdims.shapeCast_a_a1_apply, Idealize.ShloMosaic.RowSum.rowSum_apply]
    exact Finset.sum_congr rfl fun k _ => loss_apply x0 x1 r k

/-- The value a clearing step stores first is the zero word, at the accumulator's one entry. -/
theorem cleared_apply (j : S1x1.Idx) : k0_pay3 (F := Ideal) j = W0 := by
  unfold k0_pay3
  rw [shapeCast_self]
  rfl

/-- The accumulator re-laid as the [1, 1, 1] output block holds, at its one entry, the accumulator's one entry. -/
theorem relaid_apply (v : Vec Ideal S1x1 .f32) (y : S1x1x1.Idx) (j : S1x1.Idx) : k0_pay2 v y = v j := by
  unfold k0_pay2
  refine shapeCast_apply v shapeCasts_S1x1_S1x1x1 y j ?_
  rw [Shape.rowMajor_val_two, Shape.rowMajor_val_three]
  have h0 : (j 0).val < 1 := (j 0).isLt
  have h1 : (j 1).val < 1 := (j 1).isLt
  have g0 : (y 0).val < 1 := (y 0).isLt
  have g1 : (y 1).val < 1 := (y 1).isLt
  have g2 : (y 2).val < 1 := (y 2).isLt
  show (j 0).val * 1 + (j 1).val = ((y 0).val * 1 + (y 1).val) * 1 + (y 2).val
  omega

end Cert.KernelIdeal.Block

end
-- ==== Proof.LibTileSum.lean ====
import Mathlib.Algebra.BigOperators.Fin
import Mathlib.Algebra.BigOperators.Intervals

/-!
# A sum over a range cut into tiles, the last one ragged

In any commutative additive monoid — the extended reals among them, where nothing beyond commutativity and
associativity of `+` is available — a sum over `k < T · B` is the sum over the `T` tiles of the sums over the
`B` positions inside each tile, and a summand that vanishes from `n` on may be summed to any bound past `n`.
Together: a contraction of length `n` walked in `T` tiles of `B ≥ n / T`, the overhang contributing zeros, is the
contraction.
-/

namespace TileSum

open Finset

variable {M : Type*} [AddCommMonoid M]

/-- A sum over `k < T · B` is the sum over the tiles `t < T` of the sums over the positions `j < B` of tile `t`. -/
theorem sum_range_tiles (g : ℕ → M) (B : ℕ) : ∀ T : ℕ, ∑ k ∈ range (T * B), g k = ∑ t ∈ range T, ∑ j ∈ range B, g (t * B + j)
  | 0 => by simp
  | T + 1 => by
    rw [Nat.succ_mul, sum_range_add, sum_range_tiles g B T, sum_range_succ]

/-- A summand that is zero from `n` on sums, to any bound `N ≥ n`, to its sum below `n`. -/
theorem sum_range_zero_tail (g : ℕ → M) {n N : ℕ} (h : n ≤ N) (hz : ∀ k, n ≤ k → g k = 0) :
    ∑ k ∈ range N, g k = ∑ k ∈ range n, g k := by
  obtain ⟨r, rfl⟩ := Nat.exists_eq_add_of_le h
  rw [sum_range_add, sum_eq_zero (fun x _ => hz (n + x) (Nat.le_add_right n x)), add_zero]

/-- A contraction over `Fin n` is the sum over `T` tiles of `B` positions of its summand extended by zero past `n`. -/
theorem sum_fin_eq_tiles {n T B : ℕ} (h : n ≤ T * B) (f : Fin n → M) :
    ∑ k : Fin n, f k = ∑ t ∈ range T, ∑ j ∈ range B, (if hk : t * B + j < n then f ⟨t * B + j, hk⟩ else 0) := by
  rw [← sum_range_tiles (fun k => if hk : k < n then f ⟨k, hk⟩ else 0) B T,
    sum_range_zero_tail _ h (fun k hk => dif_neg (Nat.not_lt.mpr hk)), ← Fin.sum_univ_eq_sum_range (fun k => if hk : k < n then f ⟨k, hk⟩ else 0) n]
  exact Fintype.sum_congr _ _ fun k => by rw [dif_pos k.isLt]

end TileSum
-- ==== Proof.Accumulate.lean ====
/-
  An accumulator cleared every 512 steps, and the sums it holds.

  Step n adds a number b(n) to an accumulator that is cleared first whenever n is a multiple of 512. After step n the
  accumulator holds b over the steps of n's own group of 512 up to n; after the last step of group c it holds the whole
  group. Two groups of 512 blocks of 8192 rows each are the 8388608 rows in order, so the groups' sums of the blocks'
  sums add up to the sum over all rows. Everything is in a commutative additive monoid: only commutativity and
  associativity of addition are used.
-/
import Mathlib.Algebra.BigOperators.Fin
import Mathlib.Algebra.BigOperators.Intervals
import proofs.«158933_j31507880083477_1_alg».proof.Proof.LibTileSum

namespace Cert.Focal.Acc

open Finset

variable {M : Type*} [AddCommMonoid M]

/-- The accumulator after step `n`: cleared (to zero) before the addition when `n` is a multiple of 512. -/
def run (b : ℕ → M) : ℕ → M
  | 0 => 0 + b 0
  | n + 1 => if (n + 1) % 512 = 0 then 0 + b (n + 1) else run b n + b (n + 1)

theorem run_zero (b : ℕ → M) : run b 0 = 0 + b 0 := rfl
theorem run_clear (b : ℕ → M) (n : ℕ) (h : (n + 1) % 512 = 0) : run b (n + 1) = 0 + b (n + 1) := by
  rw [run, if_pos h]
theorem run_add (b : ℕ → M) (n : ℕ) (h : ¬(n + 1) % 512 = 0) : run b (n + 1) = run b n + b (n + 1) := by
  rw [run, if_neg h]

/-- After step `n` the accumulator holds `b` over the steps of `n`'s group up to `n`. -/
theorem run_eq (b : ℕ → M) : ∀ n, run b n = ∑ j ∈ range (n % 512 + 1), b (n - n % 512 + j)
  | 0 => by simp [run]
  | n + 1 => by
    by_cases h : (n + 1) % 512 = 0
    · rw [run_clear b n h, h]; simp
    · rw [run_add b n h, run_eq b n]
      have h1 : (n + 1) % 512 = n % 512 + 1 := by omega
      have h2 : n + 1 - (n % 512 + 1) = n - n % 512 := by omega
      rw [h1, h2, sum_range_succ _ (n % 512 + 1)]
      congr 2
      omega

/-- After the last step of group `c` it holds the whole group. -/
theorem run_last (b : ℕ → M) (c : ℕ) : run b (c * 512 + 511) = ∑ j ∈ range 512, b (c * 512 + j) := by
  rw [run_eq]
  have h1 : (c * 512 + 511) % 512 = 511 := by omega
  have h2 : c * 512 + 511 - 511 = c * 512 := by omega
  rw [h1, h2]

/-- Two groups of 512 blocks of 8192 rows are the 8388608 rows in order. -/
theorem groups_total (g : ℕ → M) :
    ∑ c ∈ range 2, ∑ j ∈ range 512, ∑ r ∈ range 8192, g ((c * 512 + j) * 8192 + r) = ∑ a ∈ range 8388608, g a := by
  rw [← TileSum.sum_range_tiles (fun k => ∑ r ∈ range 8192, g (k * 8192 + r)) 512 2,
    ← TileSum.sum_range_tiles g 8192 (2 * 512)]

end Cert.Focal.Acc
-- ==== Proof.GridSum.lean ====
/-
  The accumulator along the grid.

  The grid's 1024 steps run in row-major order of [2, 512]: step n has first coordinate n / 512 and second n % 512.
  The accumulator is cleared when the second coordinate is 0, so after step n it holds the sum of the block sums of the
  steps of n's own row of the grid up to n; at the last step of a row (second coordinate 511) that value is also copied
  to the output block. The proof is an induction on the step over the three cases (clearing, middle, copying); nothing
  is enumerated.
-/
import proofs.«158933_j31507880083477_1_alg».proof.Proof.KernelBlock
import proofs.«158933_j31507880083477_1_alg».proof.Proof.Accumulate

noncomputable section

open scoped BigOperators

namespace Cert.KernelIdeal.Grid

open Cert.KernelIdeal Cert.KernelIdeal.Gen Cert.KernelIdeal.Pieces Cert.KernelIdeal.Block Cert.Focal
open Idealize.ShloMosaic Idealize.ShloMosaic.TcCoe Idealize.SL.Sem Idealize.ShloMosaic.ValueIdx

variable (m : (ℓ : Loc nD τ sig) → Buf (Elt Ideal) ℓ)

/-- The sum of the block the kernel reads at step `n` of the grid (steps in row-major order of the [2, 512] grid). -/
def stepSum (c : Dev nD) (n : ℕ) : EReal :=
  if h : n < cfg0.N then blockSum (iblk m c 0 ⟨n, h⟩) (iblk m c 1 ⟨n, h⟩) else 0

/-- After step `n` the accumulator's entry is the running sum of the blocks' sums, restarted at every multiple of 512:
    by induction on the step, each step in the one of its three cases its second coordinate selects. -/
theorem acc_eq (c : Dev nD) : ∀ (n : ℕ) (h : n < cfg0.N) (j : S1x1.Idx),
    (outsAt0 m c n h).2 j = Acc.run (stepSum m c) n
  | 0, h, j => by
    refine (congrFun (congrArg Prod.snd (outsAt0_A m c ⟨0, h⟩ (Nat.zero_mod _) (by show ¬0 % 512 = 511; decide))) j).trans ?_
    dsimp only
    rw [acc_clearing, stepAcc_apply, cleared_apply, Acc.run_zero, W0_eq]
    unfold stepSum; rw [dif_pos h]
  | n + 1, h, j => by
    have hN : n + 1 < 1024 := lt_of_lt_of_eq h (show cfg0.N = 1024 from N_0)
    by_cases h0 : (n + 1) % 512 = 0
    · have h1 : ¬(n + 1) % 512 = 511 := by omega
      refine (congrFun (congrArg Prod.snd (outsAt0_A m c ⟨n + 1, h⟩ h0 h1)) j).trans ?_
      dsimp only
      rw [acc_clearing, stepAcc_apply, cleared_apply, Acc.run_clear _ n h0, W0_eq]
      unfold stepSum; rw [dif_pos h]
    · by_cases h1 : (n + 1) % 512 = 511
      · refine (congrFun (congrArg Prod.snd (outsAt0_C m c ⟨n + 1, h⟩ h0 h1)) j).trans ?_
        dsimp only
        rw [acc_copying, stepAcc_apply, Acc.run_add _ n h0]
        congr 1
        · exact acc_eq c n (Nat.lt_of_succ_lt h) j
        · unfold stepSum; rw [dif_pos h]
      · refine (congrFun (congrArg Prod.snd (outsAt0_B m c ⟨n + 1, h⟩ h0 h1)) j).trans ?_
        dsimp only
        rw [acc_middle, stepAcc_apply, Acc.run_add _ n h0]
        congr 1
        · exact acc_eq c n (Nat.lt_of_succ_lt h) j
        · unfold stepSum; rw [dif_pos h]

/-- At a copying step the output block's entry is the accumulator's after the step. -/
theorem out_eq (c : Dev nD) (t : Fin cfg0.N) (h1 : t.val % 512 = 511) (y : S1x1x1.Idx) :
    (outsAt0 m c t.val t.isLt).1 y = Acc.run (stepSum m c) t.val := by
  obtain ⟨n, hn⟩ := t
  cases n with
  | zero => exact absurd h1 (by show ¬0 % 512 = 511; decide)
  | succ n =>
    have h1' : (n + 1) % 512 = 511 := h1
    have h0 : ¬(n + 1) % 512 = 0 := by omega
    refine (congrFun (congrArg Prod.fst (outsAt0_C m c ⟨n + 1, hn⟩ h0 h1')) y).trans ?_
    dsimp only
    rw [out_copying, relaid_apply _ y (ix2 (0 : Fin 1) (0 : Fin 1)), stepAcc_apply, Acc.run_add _ n h0]
    congr 1
    · exact acc_eq m c n (Nat.lt_of_succ_lt hn) _
    · unfold stepSum; rw [dif_pos hn]

end Cert.KernelIdeal.Grid

end
-- ==== Proof.Rows.lean ====
/-
  Which rows of the arguments a step reads.

  Before the kernel the [8388608, 3] logits are re-laid as [2, 4194304, 3] and the [8388608] target words as
  [2, 4194304, 1]; a re-laying keeps row-major positions. Step t of the grid reads block (t / 512, t % 512) of each:
  rows (t % 512) · 8192 … of half t / 512, that is rows t · 8192 … t · 8192 + 8191 of the arguments. Hence the
  block sum of step t is the sum of those rows' terms.
-/
import proofs.«158933_j31507880083477_1_alg».proof.Proof.GridSum
import Idealize.ShloMosaic.Lib.StableHlo.Run

noncomputable section

open scoped BigOperators

namespace Cert.KernelIdeal.Rows

open Cert.KernelIdeal Cert.KernelIdeal.Gen Cert.KernelIdeal.Pieces Cert.KernelIdeal.Block Cert.KernelIdeal.Grid Cert.Focal
open Idealize.ShloMosaic Idealize.ShloMosaic.TcCoe Idealize.SL.Sem Idealize.ShloMosaic.ValueIdx

variable (m : (ℓ : Loc nD τ sig) → Buf (Elt Ideal) ℓ)

/-- The array of logits as the kernel's first window finds it: the argument re-laid as [2, 4194304, 3]. -/
theorem V_logits (c : Dev nD) : (V m c main_v0 : S2x4194304x3.Idx → EReal)
    = shapeCast S2x4194304x3 (m ((c : Thread nD τ).loc main_arg0)) shapeCasts_S8388608x3_S2x4194304x3 := by
  show StableHlo.after hostOps0 (fun b => m (c, b)) (Proc.devRef .tc main_v0) = _
  after_results
  rfl

/-- The array of target words as the second window finds it: the argument re-laid as [2, 4194304, 1]. -/
theorem V_words (c : Dev nD) : (V m c main_v1 : S2x4194304x1.Idx → BitVec 32)
    = shapeCast S2x4194304x1 (m ((c : Thread nD τ).loc main_arg1)) shapeCasts_S8388608_S2x4194304x1 := by
  show StableHlo.after hostOps0 (fun b => m (c, b)) (Proc.devRef .tc main_v1) = _
  after_results
  rfl

/-- The three windows' block indices at step t, decided over the grid: the inputs' blocks are (t / 512, t % 512, 0),
    the output's (t / 512, 0, 0). -/
theorem idx_facts : ∀ t : Fin cfg0.N,
    win0_0.index t (0 : Fin 3) = t.val / 512 ∧ win0_0.index t (1 : Fin 3) = t.val % 512 ∧ win0_0.index t (2 : Fin 3) = 0
    ∧ win0_1.index t (0 : Fin 3) = t.val / 512 ∧ win0_1.index t (1 : Fin 3) = t.val % 512 ∧ win0_1.index t (2 : Fin 3) = 0
    ∧ win0_2.index t (0 : Fin 3) = t.val / 512 ∧ win0_2.index t (1 : Fin 3) = 0 ∧ win0_2.index t (2 : Fin 3) = 0 :=
  (by decide +kernel : ∀ t : Fin grid0.N, _)

/-- Row r, class k of the block of logits at step t is row t · 8192 + r of the argument: the block sits at rows
    (t % 512) · 8192 … of half t / 512, and a half is 512 · 8192 rows. -/
theorem logits_entry (c : Dev nD) (t : Fin cfg0.N) (r : Fin 8192) (k : Fin 3) (h : t.val * 8192 + r.val < 8388608) :
    iblk m c 0 t (ix3 (0 : Fin 1) r k) = m ((c : Thread nD τ).loc main_arg0) (ix2 ⟨t.val * 8192 + r.val, h⟩ k) := by
  unfold iblk
  rw [View.read_apply]
  show V m c main_v0 (((cfg0.win 0).blk t).view.emb (ix3 (0 : Fin 1) r k)) = _
  rw [V_logits]
  refine shapeCast_apply _ _ _ _ ?_
  show (S8388608x3.rowMajor (ix2 ⟨t.val * 8192 + r.val, h⟩ k)).val = _
  rw [Shape.rowMajor_val_two, Shape.rowMajor_val_three]
  obtain ⟨e0, e1, e2, -⟩ := idx_facts t
  show (t.val * 8192 + r.val) * 3 + k.val = ((win0_0.index t (0 : Fin 3) * 1 + 1 * 0) * 4194304 + (win0_0.index t (1 : Fin 3) * 8192 + 1 * r.val)) * 3 + (win0_0.index t (2 : Fin 3) * 3 + 1 * k.val)
  rw [e0, e1, e2]
  omega

/-- Row r of the block of target words at step t is entry t · 8192 + r of the argument. -/
theorem words_entry (c : Dev nD) (t : Fin cfg0.N) (r : Fin 8192) (h : t.val * 8192 + r.val < 8388608) :
    iblk m c 1 t (ix3 (0 : Fin 1) r (0 : Fin 1)) = m ((c : Thread nD τ).loc main_arg1) (ix1 ⟨t.val * 8192 + r.val, h⟩) := by
  unfold iblk
  rw [View.read_apply]
  show V m c main_v1 (((cfg0.win 1).blk t).view.emb (ix3 (0 : Fin 1) r (0 : Fin 1))) = _
  rw [V_words]
  refine shapeCast_apply _ _ _ _ ?_
  show (S8388608.rowMajor (ix1 ⟨t.val * 8192 + r.val, h⟩)).val = _
  rw [Shape.rowMajor_val_one, Shape.rowMajor_val_three]
  obtain ⟨-, -, -, e0, e1, e2, -⟩ := idx_facts t
  show t.val * 8192 + r.val = ((win0_1.index t (0 : Fin 3) * 1 + 1 * 0) * 4194304 + (win0_1.index t (1 : Fin 3) * 8192 + 1 * r.val)) * 1 + (win0_1.index t (2 : Fin 3) * 1 + 1 * 0)
  rw [e0, e1, e2]
  omega

/-- So the block sum of step n is the sum of the row terms of rows n · 8192 … n · 8192 + 8191 of the arguments. -/
theorem stepSum_eq (c : Dev nD) (n : ℕ) (hn : n < 1024) :
    stepSum m c n = ∑ r ∈ Finset.range 8192,
      rowTerm (m ((c : Thread nD τ).loc main_arg0)) (m ((c : Thread nD τ).loc main_arg1)) (n * 8192 + r) := by
  have hN : n < cfg0.N := lt_of_lt_of_eq hn (show cfg0.N = 1024 from N_0).symm
  unfold stepSum blockSum
  rw [dif_pos hN, ← Fin.sum_univ_eq_sum_range (fun r => rowTerm (m ((c : Thread nD τ).loc main_arg0)) (m ((c : Thread nD τ).loc main_arg1)) (n * 8192 + r)) 8192]
  refine Finset.sum_congr rfl fun r _ => ?_
  have h : n * 8192 + r.val < 8388608 := by have := r.isLt; omega
  show _ = rowTerm (m ((c : Thread nD τ).loc main_arg0)) (m ((c : Thread nD τ).loc main_arg1)) (n * 8192 + r.val)
  unfold rowTerm
  rw [dif_pos h]
  refine Finset.sum_congr rfl fun k _ => ?_
  rw [logits_entry m c ⟨n, hN⟩ r k h, words_entry m c ⟨n, hN⟩ r h]

end Cert.KernelIdeal.Rows

end
-- ==== Proof.LibSumIdx3.lean ====
/-
  A sum over a rank-3 index set is the triple sum over its coordinates (the rank-3 companion of the library's `sum_idx2`).
-/
import Idealize.ShloMosaic.Lib.ValueIdx

namespace Cert.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any commutative additive monoid, is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx3
-- ==== Proof.KernelResult.lean ====
/-
  What the kernel program returns.

  The [2, 1, 1] output array has one entry per row of the grid; only the last step of a row writes its block back, and
  then the accumulator holds the row's whole sum, so the array ends at the two rows' sums. After the kernel @main adds
  the array's entries to the zero word and divides by the word for 8388608 · 3. Two rows of 512 blocks of 8192 rows
  are the 8388608 rows of the arguments in order, so the result is the mean loss: the sum of every row's terms,
  divided by that word.
-/
import proofs.«158933_j31507880083477_1_alg».proof.Proof.Rows
import proofs.«158933_j31507880083477_1_alg».proof.Proof.LibSumIdx3
import Idealize.ShloMosaic.Lib.Pipeline.Value
import Idealize.ShloMosaic.Lib.StableHlo.Run

noncomputable section

open scoped BigOperators

namespace Cert.KernelIdeal.Result

open Cert.KernelIdeal Cert.KernelIdeal.Gen Cert.KernelIdeal.Grid Cert.KernelIdeal.Rows Cert.Focal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the [2, 1, 1] output array ends holding: at (a, 0, 0) the sum of the block sums of row a of the grid. -/
def groupSums (c : Dev nD) : S2x1x1.Idx → EReal :=
  fun idx => ∑ j ∈ Finset.range 512, stepSum m c ((idx 0).val * 512 + j)

/-- An index of the output array is in step t's block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2).slice (win0_2.rect t)).set ↔ _
  rw [View.set_slice_whole, Rect.mem_set_unit]
  exact Iff.rfl

/-- What a copying step writes back is its block of that array: the step is the last of its row of the grid, and the
    accumulator holds the whole row. -/
theorem flushed_eq (c : Dev nD) (t : Fin cfg0.N) (hf : (cfg0.win 2).flush t = true) :
    (dats m 0 c).flushed 2 t = ((cfg0.win 2).blk t).view.read (Elt Ideal) (groupSums m c) := by
  have h511 : t.val % 512 = 511 := (flush0_2 t).mp hf
  show (cfg0.win 2).cut (grid0.coords t) ((dats m 0 c).after 2 t) = _
  rw [after0_2]
  funext y
  rw [View.read_apply]
  show (outsAt0 m c t.val t.isLt).1 y = _
  rw [out_eq m c t h511 y]
  obtain ⟨-, -, -, -, -, -, e0, -, -⟩ := idx_facts t
  have hemb : ((((cfg0.win 2).blk t).view.emb y) 0).val = t.val / 512 := by
    show win0_2.index t (0 : Fin 3) * 1 + 1 * (y 0).val = _
    have hy : (y 0).val < 1 := (y 0).isLt
    omega
  show _ = ∑ j ∈ Finset.range 512, stepSum m c (((((cfg0.win 2).blk t).view.emb y) 0).val * 512 + j)
  rw [hemb, ← Acc.run_last]
  congr 1
  omega

/-- Every index of the output array lies in the block of a copying step: (a, 0, 0) in that of step a · 512 + 511. -/
theorem cover (i : S2x1x1.Idx) :
    ∃ t : Fin cfg0.N, (cfg0.win 2).flush t = true ∧ i ∈ ((cfg0.win 2).blk t).view.set := by
  have hN : cfg0.N = 1024 := N_0
  have h0 : (i 0).val < 2 := (i 0).isLt
  have h1 : (i 1).val < 1 := (i 1).isLt
  have h2 : (i 2).val < 1 := (i 2).isLt
  obtain ⟨t, ht⟩ : ∃ t : Fin cfg0.N, t.val = (i 0).val * 512 + 511 := ⟨⟨_, by omega⟩, rfl⟩
  refine ⟨t, (flush0_2 t).mpr (by omega), ?_⟩
  rw [mem_blk]
  obtain ⟨-, -, -, -, -, -, e0, e1, e2⟩ := idx_facts t
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1 ≤ (i 2).val ∧ (i 2).val < win0_2.index t (2 : Fin 3) * 1 + 1
    rw [e2]; omega

/-- So the output array ends holding the rows' sums. -/
theorem final (c : Dev nD) : (dats m 0 c).arrAt 2 cfg0.N = groupSums m c :=
  (dats m 0 c).arrAt_eq_of_cover 2 (groupSums m c) (flushed_eq m c) cover

/-- The scalar @main returns after the kernel: the output array summed from the zero word, divided by the count word. -/
theorem tail_eq (c : Dev nD) :
    Pipeline.afterTail₀ cfgs (dats m) 0 (V0 m) [hostOps1] c main_v4
      = Host.divf (Host.reduceAdd (groupSums m c) (constant (F := Ideal) S_ .f32 0x00000000#32) reducesTo_S2x1x1_S_d0_1_2 h_S_) (constant (F := Ideal) S_ .f32 0x4BC00000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2) = groupSums m c :=
    (Pipeline.withArrays_arr spec0 launch0.win.arr_inj c _ _ 2).trans (final m c)
  rw [e]

/-- The host's sum of a [2, 1, 1] array over all its axes: the initial word plus the sum over every index. -/
theorem sum_apply (y0 : S2x1x1.Idx → EReal) (i : S_.Idx) :
    Host.reduceAdd (F := Ideal) y0 (constant S_ .f32 0x00000000#32) reducesTo_S2x1x1_S_d0_1_2 h_S_ i = W0 + ∑ j : S2x1x1.Idx, y0 j := by
  simp only [Host.reduceAdd, Ideal.hostReduceAdd_def]
  exact Ideal.hostReduceAdd_total reducesTo_S2x1x1_S_d0_1_2 (fun b => b.elim0) y0 _ i

/-- That scalar is the mean loss of the arguments: the two rows of the grid, 512 blocks each, 8192 rows a block,
    are the 8388608 rows in order. -/
theorem value_eq (c : Dev nD) :
    Host.divf (Host.reduceAdd (groupSums m c) (constant (F := Ideal) S_ .f32 0x00000000#32) reducesTo_S2x1x1_S_d0_1_2 h_S_) (constant (F := Ideal) S_ .f32 0x4BC00000#32)
      = fun _ => meanLoss (m ((c : Thread nD τ).loc main_arg0)) (m ((c : Thread nD τ).loc main_arg1)) := by
  funext i
  show Ideal.div (Host.reduceAdd (F := Ideal) (groupSums m c) (constant S_ .f32 0x00000000#32) reducesTo_S2x1x1_S_d0_1_2 h_S_ i) (Ideal.ofBits .f32 0x4BC00000#32) = _
  rw [sum_apply]
  unfold meanLoss
  refine congrArg (fun s => Ideal.div (W0 + s) (Ideal.ofBits .f32 0x4BC00000#32)) ?_
  rw [Cert.SumIdx3.sum_idx3]
  simp only [Fin.sum_univ_one]
  rw [← Acc.groups_total, ← Fin.sum_univ_eq_sum_range (fun a => ∑ j ∈ Finset.range 512, ∑ r ∈ Finset.range 8192,
    rowTerm (m ((c : Thread nD τ).loc main_arg0)) (m ((c : Thread nD τ).loc main_arg1)) ((a * 512 + j) * 8192 + r)) 2]
  refine Finset.sum_congr rfl fun a _ => ?_
  show ∑ j ∈ Finset.range 512, stepSum m c (a.val * 512 + j) = _
  refine Finset.sum_congr rfl fun j hj => ?_
  exact stepSum_eq m c _ (by have := a.isLt; have := Finset.mem_range.mp hj; omega)

/-- The kernel program's run, read: @main's result is the mean loss of the arguments, which end unchanged. -/
theorem run : θ_run defs (onTc (τ := τ) (main (F := Ideal))) ⟨m, fun _ => 0, ρ⟩ fun r => ∀ c : Dev nD,
      r.2.mem ((c : Thread nD τ).loc main_v4) = (fun _ => meanLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  What the reference program returns, for real logits.

  The reference builds the one-hot matrix by comparing each row's column with the class numbers, forms the loss matrix
  pointwise — the focal weight as the power 2.0 — sums it over both axes from the zero word, and divides by the word
  for 8388608 · 3. Entry (a, k) of its loss matrix is therefore the power spelling of the term of the logit (a, k) and
  the one-hot entry of class k for word a; when every logit is a real number this is the product spelling, and the
  result is the mean loss.
-/
import proofs.«158933_j31507880083477_1_alg».proof.Proof.Gen.ReferenceIdeal.Read
import proofs.«158933_j31507880083477_1_alg».proof.Proof.LossTerm
import Idealize.ShloMosaic.Lib.ValueIdx

noncomputable section

open scoped BigOperators

namespace Cert.ReferenceIdeal.RefValue

open Cert.ReferenceIdeal Cert.ReferenceIdeal.Read Cert.Focal
open Idealize.ShloMosaic Idealize.ShloMosaic.ValueIdx

/-- Entry (a, k) of the reference's one-hot matrix. -/
theorem hot_entry (x1 : S8388608.Idx → BitVec 32) (a : Fin 8388608) (k : Fin 3) :
    val_main_v6 (F := Ideal) x1 (ix2 a k) = hot (x1 (ix1 a)) k.val := by
  have e : idx_main_call2_v0 (idx_main_call2_v3 (ix2 a k)) = ix1 a :=
    funext fun d => Fin.ext (by match d with | ⟨0, _⟩ => rfl)
  simp only [val_main_v6_apply, val_main_call2_v5_apply, val_main_call2_v3_apply, val_main_call2_v2_apply,
    val_main_call2_v0_apply, val_main_v5_apply, val_main_v1_apply, val_main_v0_apply, val_main_c_apply,
    val_main_call1_v0_apply, val_main_c_3_apply, val_main_v4_apply, val_main_v3_apply, val_main_v2_apply,
    val_main_c_0_apply, val_main_call0_v0_apply, val_main_c_1_apply, val_main_call0_v1_apply, val_main_c_2_apply,
    val_main_call2_v4_apply, val_main_call2_v1_apply, e]
  rfl

/-- Entry (a, k) of the reference's loss matrix: the power spelling of the term. -/
theorem loss_entry (x0 : S8388608x3.Idx → EReal) (x1 : S8388608.Idx → BitVec 32) (a : Fin 8388608) (k : Fin 3) :
    val_main_v27 (F := Ideal) x0 x1 (ix2 a k) = termPow (x0 (ix2 a k)) (hot (x1 (ix1 a)) k.val) := by
  rw [← hot_entry x1 a k]
  simp only [val_main_v27_apply, val_main_v17_apply, val_main_v15_apply, val_main_v14_apply, val_main_cst_5_apply,
    val_main_v13_apply, val_main_v7_apply, val_main_v12_apply, val_main_v9_apply, val_main_v8_apply, val_main_cst_apply,
    val_main_v11_apply, val_main_v10_apply, val_main_cst_4_apply, val_main_v16_apply, val_main_cst_6_apply,
    val_main_v26_apply, val_main_v21_apply, val_main_v19_apply, val_main_v18_apply, val_main_cst_7_apply,
    val_main_v20_apply, val_main_v25_apply, val_main_v24_apply, val_main_v23_apply, val_main_v22_apply]
  rfl

/-- With every logit a real number the reference's result is the mean loss. -/
theorem result_eq (x0 : S8388608x3.Idx → EReal) (x1 : S8388608.Idx → BitVec 32)
    (hx : ∀ i, ∃ r : ℝ, x0 i = (r : EReal)) :
    val_main_v29 (F := Ideal) x0 x1 = fun _ => meanLoss x0 x1 := by
  funext i
  rw [val_main_v29_apply, val_main_v28_apply, val_main_cst_9_apply, val_main_cst_8_apply]
  unfold meanLoss
  refine congrArg (fun s => Ideal.div (W0 + s) (Ideal.ofBits .f32 0x4BC00000#32)) ?_
  rw [sum_idx2, ← Fin.sum_univ_eq_sum_range (fun a => rowTerm x0 x1 a) 8388608]
  refine Finset.sum_congr rfl fun a _ => ?_
  show _ = rowTerm x0 x1 a.val
  unfold rowTerm
  rw [dif_pos a.isLt]
  refine Finset.sum_congr rfl fun k _ => ?_
  rw [loss_entry]
  obtain ⟨r, hr⟩ := hx (ix2 a k)
  show termPow (x0 (ix2 a k)) (hot (x1 (ix1 a)) k.val) = term (x0 (ix2 a k)) (hot (x1 (ix1 a)) k.val)
  rw [hr]
  exact termPow_eq r _

end Cert.ReferenceIdeal.RefValue

end
-- ==== Proof.RealLogits.lean ====
/-
  The precondition makes every logit a real number.

  The precondition says that |x| < +inf at every entry x of the logits, conjoined over all entries. On the extended
  reals |x| = max(x, -x) is +inf at both infinities, so an entry with |x| < +inf is a real number.
-/
import proofs.«158933_j31507880083477_1_alg».proof.Pre_finite_inputs
import Idealize.ShloMosaic.Lib.ReduceAll
import Idealize.ShloMosaic.Lib.ValueIdx
import Idealize.ShloMosaic.PureOps.Ideal

noncomputable section

namespace Cert.Pre_finite_inputs.RealLogits

open Cert.Pre_finite_inputs
open Idealize.ShloMosaic Idealize.ShloMosaic.ValueIdx

variable [Facts]

/-- The +inf word is the top of the extended reals. -/
theorem inf_word : Ideal.ofBits .f32 0x7F800000#32 = ⊤ := by simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every logit is a real number. -/
theorem real_of_pre (x0 : FVec Ideal S8388608x3 .f32) (x1 : IVec S8388608 32)
    (h : fn (F := Ideal) x0 x1 = fun _ => 1#1) (i : S8388608x3.Idx) : ∃ r : ℝ, x0 i = (r : EReal) := by
  have e := congrFun h ix0
  dsimp only [fn] at e
  haveI : Subsingleton S_.Idx := ⟨fun a b => funext fun d => d.elim0⟩
  have hi := Host.reduce_andi_all _ _ _ _ _ e i
  have hi' : Ideal.cmp .olt (max (x0 i) (-(x0 i))) (Ideal.ofBits .f32 0x7F800000#32) = 1#1 := hi
  apply real_of_abs_lt_top
  rw [← inf_word]
  by_contra hn
  have h0 : Ideal.cmp .olt (max (x0 i) (-(x0 i))) (Ideal.ofBits .f32 0x7F800000#32) = 0#1 := by
    show BitVec.ofBool (decide _) = 0#1
    rw [decide_eq_false hn]; rfl
  rw [h0] at hi'
  exact absurd hi' (by decide)

end Cert.Pre_finite_inputs.RealLogits

end
-- ==== Proof.lean ====
/-
  A mean focal binary-cross-entropy loss over 8388608 rows of three logits each, computed two ways.

  Each row carries a target word selecting one of three columns (1 selects 0, 3 selects 1, anything else 2); t is the
  one-hot matrix of the columns. For a logit x with one-hot entry t the term is

      (1 - pt)^2 · (max(x, 0) - x·t + log1p(exp(-|x|))),      pt = x·t + (1 - x)·(1 - t),

  and the result is the sum of all 8388608 · 3 terms divided by that count.

  The kernel program re-lays the logits as [2, 4194304, 3], walks a [2, 512] grid of [8192, 3] blocks, sums each block's
  terms (over the classes, then over the rows) into a one-entry accumulator that is cleared at the first block of each
  half and copied to a [2, 1, 1] output at the last; afterwards it adds the two halves and divides. The reference
  program forms the whole loss matrix, sums it over both axes and divides. On the extended reals addition is
  commutative and associative, so any tiling and any order of a finite sum give the same number: the two halves of 512
  blocks of 8192 rows are the 8388608 rows in order (Accumulate, Rows, KernelResult).

  The programs spell two things differently. The kernel negates |x| by subtracting it from zero, which is negation on
  every extended real. The kernel squares 1 - pt by a product while the reference raises it to the power 2.0; these agree
  when 1 - pt is a real number and differ at -inf. Here the precondition is used: every logit is finite, hence a real
  number (RealLogits), the one-hot entries are 0 or 1, so 1 - pt is real and the two terms are equal (LossTerm).

  The kernel program's frames are the generated ones; the reference's frame is its generated run with the result dropped;
  the idealization rewrote nothing, so that claim is trivial.
-/
import proofs.«158933_j31507880083477_1_alg».proof.Defs
import proofs.«158933_j31507880083477_1_alg».proof.Proof.Gen.Kernel
import proofs.«158933_j31507880083477_1_alg».proof.Proof.Gen.Kernel.Skeleton
import proofs.«158933_j31507880083477_1_alg».proof.Proof.Gen.Kernel.Launch
import proofs.«158933_j31507880083477_1_alg».proof.Proof.Gen.Kernel.Points
import proofs.«158933_j31507880083477_1_alg».proof.Proof.Gen.Kernel.Frame
import proofs.«158933_j31507880083477_1_alg».proof.Proof.Gen.KernelIdeal
import proofs.«158933_j31507880083477_1_alg».proof.Proof.Gen.KernelIdeal.Skeleton
import proofs.«158933_j31507880083477_1_alg».proof.Proof.Gen.KernelIdeal.Launch
import proofs.«158933_j31507880083477_1_alg».proof.Proof.Gen.KernelIdeal.Points
import proofs.«158933_j31507880083477_1_alg».proof.Proof.Gen.KernelIdeal.Frame
import proofs.«158933_j31507880083477_1_alg».proof.Proof.Gen.ReferenceIdeal
import proofs.«158933_j31507880083477_1_alg».proof.Proof.Gen.Pre_finite_inputs
import proofs.«158933_j31507880083477_1_alg».proof.Proof.Gen.ReferenceIdeal.Read
import proofs.«158933_j31507880083477_1_alg».proof.Proof.KernelResult
import proofs.«158933_j31507880083477_1_alg».proof.Proof.RefValue
import proofs.«158933_j31507880083477_1_alg».proof.Proof.RealLogits
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the mean loss of the arguments: the kernel program for any logits, the reference for real
    ones, which the precondition provides. -/
theorem algebraic : Cert.algebraic_KernelIdeal_ReferenceIdeal := by
  intro m ρ m' ρ' hpre hagree
  refine ⟨fun c => fun _ => Cert.Focal.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  exact Cert.ReferenceIdeal.RefValue.result_eq _ _
    (fun i => Cert.Pre_finite_inputs.RealLogits.real_of_pre _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
